-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  main_v3
-- ==== Kernel.lean ====
abbrev S2048x64 : Shape := ⟨2, ![2048, 64]⟩
abbrev S1x1 : Shape := ⟨2, ![1, 1]⟩
abbrev S64 : Shape := ⟨1, ![64]⟩
abbrev S1x64 : Shape := ⟨2, ![1, 64]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 3
  | .vmem => 2
  | .smem => 0
  | _ => 0

abbrev bufTy : (tb : Table) → Fin (tcTables nBuf tb) → BufTy
  | .hbm, ⟨0, _⟩ => ⟨S2048x64, .f32⟩
  | .hbm, ⟨1, _⟩ => ⟨S1x1, .f32⟩
  | .hbm, ⟨2, _⟩ => ⟨S_, .f32⟩
  | .local _ .vmem, ⟨0, _⟩ => ⟨S2048x64, .f32⟩
  | .local _ .vmem, ⟨1, _⟩ => ⟨S1x1, .f32⟩
  | _, _ => ⟨S2048x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S2048x64_S2048x64_0_0 : ∀ a, (![0, 0] : Fin 2 → Nat) a + S2048x64.size a ≤ S2048x64.size a
  h_S2048x64 : 0 < S2048x64.numel
  reduces_S2048x64_S64 : S2048x64.Reduces [0] S64
  shapeCasts_S64_S1x64 : S64.ShapeCasts S1x64
  reduces_S2048x64_S2048 : S2048x64.Reduces [1] S2048
  shapeCasts_S2048_S2048x1 : S2048.ShapeCasts S2048x1
  broadcasts_S1x64_S2048x64 : S1x64.Broadcasts S2048x64
  reduces_S1x64_S1 : S1x64.Reduces [1] S1
  shapeCasts_S1_S1x1 : S1.ShapeCasts S1x1
  broadcasts_S1x1_S2048x1 : S1x1.Broadcasts S2048x1
  reduces_S2048x1_S1 : S2048x1.Reduces [0] S1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .f32 = 32 ∨ (Rect.block (s := S2048x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x64 : Shape := ⟨2, ![2048, 64]⟩
abbrev S1x2048x64 : Shape := ⟨3, ![1, 2048, 64]⟩
abbrev S2048x1x64 : Shape := ⟨3, ![2048, 1, 64]⟩
abbrev S2048x2048x64 : Shape := ⟨3, ![2048, 2048, 64]⟩
abbrev S_ : Shape := ⟨0, ![]⟩
abbrev S2048 : Shape := ⟨1, ![2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S1x2048x64, .f32⟩
  | .hbm, ⟨2, _⟩ => ⟨S2048x1x64, .f32⟩
  | .hbm, ⟨3, _⟩ => ⟨S2048x2048x64, .f32⟩
  | .hbm, ⟨4, _⟩ => ⟨S2048x2048x64, .f32⟩
  | .hbm, ⟨5, _⟩ => ⟨S2048x2048x64, .f32⟩
  | .hbm, ⟨6, _⟩ => ⟨S2048x2048x64, .f32⟩
  | .hbm, ⟨7, _⟩ => ⟨S_, .f32⟩
  | .hbm, ⟨8, _⟩ => ⟨S2048x64, .f32⟩
  | .hbm, ⟨9, _⟩ => ⟨S_, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S_, .f32⟩
  | .hbm, ⟨14, _⟩ => ⟨S2048x64, .f32⟩
  | .hbm, ⟨15, _⟩ => ⟨S2048x64, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S2048x64_S1x2048x64_1_2 : S2048x64.BroadcastsInDim S1x2048x64 (![1, 2] : Fin 2 → Fin S1x2048x64.rank)
  bcast_S2048x64_S2048x1x64_0_2 : S2048x64.BroadcastsInDim S2048x1x64 (![0, 2] : Fin 2 → Fin S2048x1x64.rank)
  bcast_S1x2048x64_S2048x2048x64_0_1_2 : S1x2048x64.BroadcastsInDim S2048x2048x64 (![0, 1, 2] : Fin 3 → Fin S2048x2048x64.rank)
  bcast_S2048x1x64_S2048x2048x64_0_1_2 : S2048x1x64.BroadcastsInDim S2048x2048x64 (![0, 1, 2] : Fin 3 → Fin S2048x2048x64.rank)
  reducesTo_S2048x2048x64_S2048x64_d1 : S2048x2048x64.ReducesTo [1] S2048x64
  h_S_ : 0 < S_.numel
  bcast_S_S2048x64 : S_.BroadcastsInDim S2048x64 (![] : Fin 0 → Fin S2048x64.rank)
  reducesTo_S2048x64_S2048_d1 : S2048x64.ReducesTo [1] S2048
  reducesTo_S2048_S_d0 : S2048.ReducesTo [0] S_

variable [Facts₀]

class Facts : Prop extends Facts₀ where

variable [Facts]
-- ==== Proof.LibColReduce.lean ====
/-
  Reductions down the rows of a matrix, read at one column on the extended reals. For an [R, C] matrix reduced along
  its first axis, the sum at column n is the sum over the rows of the entries of that column, and the maximum at
  column n is the fold of max, from the starting word's value, over the rows of the entries of that column. Both hold
  at any extents R and C; the indices are written by coordinates so that a caller meets no hidden index arithmetic.
-/
import Idealize.ShloMosaic.PureOps.Ideal.Laws
import Idealize.ShloMosaic.Lib.ValueIdx

noncomputable section

open scoped BigOperators

namespace Cert.Lib

open Idealize.ShloMosaic Idealize.ShloMosaic.ValueIdx

/-- A sum down the rows of an [R, C] matrix, at column n, is the sum over the rows of the entries of that column. -/
theorem colAdd_apply {R C : Nat} (src : FVec Ideal ⟨2, ![R, C]⟩ .f32)
    (h : Shape.Reduces (⟨2, ![R, C]⟩ : Shape) [0] ⟨1, ![C]⟩) (hφ : FKind.Formats .f32)
    (hacc : (0x00000000#32 : BitVec 32) = FKind.add.neutral .f32 hφ) (n : Fin C) :
    multiReduction .add [0] ⟨1, ![C]⟩ src 0x00000000#32 h hφ hacc (ix1 n) = ∑ a : Fin R, src (ix2 a n) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum down the rows of an [R, C] matrix, at column n, is the fold of max, from the starting word's value, over
    the rows of the entries of that column. -/
theorem colMax_apply {R C : Nat} (src : FVec Ideal ⟨2, ![R, C]⟩ .f32) (acc : BitVec 32)
    (h : Shape.Reduces (⟨2, ![R, C]⟩ : Shape) [0] ⟨1, ![C]⟩) (hφ : FKind.Formats .f32)
    (hacc : acc = FKind.maximumf.neutral .f32 hφ) (n : Fin C) :
    multiReduction .maximumf [0] ⟨1, ![C]⟩ src acc h hφ hacc (ix1 n)
      = (Finset.univ : Finset (Fin R)).fold max (Ideal.ofBits .f32 acc) (fun a => src (ix2 a n)) :=
  (Ideal.multiReduction_maximumf_single src acc h hφ hacc (ix1 n)).trans
    (congrArg (fun f => Finset.fold max (Ideal.ofBits .f32 acc) f (Finset.univ : Finset (Fin R)))
      (funext fun a => congrArg src (funext fun d => Fin.ext (by
        match d with
        | ⟨0, _⟩ => rfl
        | ⟨1, _⟩ => rfl))))

end Cert.Lib

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.Literals.lean ====
/-
  The three float words the two programs spell, as the reals they denote: 2048 (the sample count), 2, and
  8388608 = 2 * 2048 * 2048 (the kernel's single divisor). Each is a power of two, so its binary value is exact.
-/
import Idealize.ShloMosaic.PureOps.Ideal

noncomputable section

namespace Cert.Literals

open Idealize.ShloMosaic

/-- The word of 2048.0 denotes the real 2048. -/
theorem ofBits_2048 : Ideal.ofBits .f32 0x45000000#32 = ((2048 : ℝ) : EReal) := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- The word 0x4B000000 denotes 2^23 = 8388608 = 2 * 2048 * 2048. -/
theorem ofBits_8388608 : Ideal.ofBits .f32 0x4B000000#32 = ((8388608 : ℝ) : EReal) := by
  simp [Ideal.ofBits, Ideal.ieee, -EReal.coe_mul]

end Cert.Literals

end
-- ==== Proof.GapIdentity.lean ====
/-
  The mathematics of the certificate. For samples y(i, d), with i below 2048 and d below 64, both programs compute

      (1 / (2 · 2048²)) · Σ_i Σ_d Σ_j (y(j, d) − y(i, d))².

  One program sums the squared gaps pair by pair: for each (i, d) the mean over j of (y(j, d) − y(i, d))², negated and
  halved, summed over d, negated again, and averaged over i (`pairForm`). The other expands the square,

      Σ_j (y(j, d) − y(i, d))² = Σ_j y(j, d)² − 2 · y(i, d) · Σ_j y(j, d) + 2048 · y(i, d)²,

  so that a row needs only its own sum of squares, its inner product with the column sums, and the total of all
  squares; it divides once, by 2 · 2048 · 2048 = 8388608 (`momentForm`).

  On the extended reals the expansion can fail (a difference of infinities, a product distributed over a sum with an
  infinite term), so the two forms are joined for FINITE samples only: there each form is the image of the same
  expression over the reals (`momentForm_coe`, `pairForm_coe`), and over the reals the identity is the expansion of the
  square, summed (`sum_sq_gap`, `moment_eq_pair`). Every divisor is a power of two and is divided by exactly; a
  quotient by a nonzero real c is the product with 1 / c on every extended real.
-/
import Idealize.ShloMosaic.PureOps.Ideal

noncomputable section

open scoped BigOperators

namespace Cert.Gap

open Idealize.ShloMosaic

/-! ## The two forms, on the extended reals -/

/-- The squared gaps summed pair by pair: mean over j, negated, halved, summed over d, negated, mean over i. -/
def pairForm (y : Fin 2048 → Fin 64 → EReal) : EReal :=
  Ideal.div (∑ i, -(∑ d, Ideal.div (-(Ideal.div (∑ j, (y j d - y i d) * (y j d - y i d)) ((2048 : ℝ) : EReal)))
    ((2 : ℝ) : EReal))) ((2048 : ℝ) : EReal)

/-- The square expanded: per row 2048 times its sum of squares, less twice its inner product with the column sums,
    plus the total of all squares; summed over the rows and divided once by 2 · 2048 · 2048. -/
def momentForm (y : Fin 2048 → Fin 64 → EReal) : EReal :=
  Ideal.div (∑ i, (((2048 : ℝ) : EReal) * (∑ d, y i d * y i d) - ((2 : ℝ) : EReal) * (∑ d, y i d * ∑ j, y j d)
    + ∑ d, ∑ j, y j d * y j d)) ((8388608 : ℝ) : EReal)

/-! ## The same two expressions over the reals -/

def pairReal (r : Fin 2048 → Fin 64 → ℝ) : ℝ :=
  (∑ i, -(∑ d, (-((∑ j, (r j d - r i d) * (r j d - r i d)) * (1 / 2048))) * (1 / 2))) * (1 / 2048)

def momentReal (r : Fin 2048 → Fin 64 → ℝ) : ℝ :=
  (∑ i, (2048 * (∑ d, r i d * r i d) - 2 * (∑ d, r i d * ∑ j, r j d) + ∑ d, ∑ j, r j d * r j d)) * (1 / 8388608)

/-- The inclusion of the reals in the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- On finite samples the pairwise form is the real expression. -/
theorem pairForm_coe (r : Fin 2048 → Fin 64 → ℝ) :
    pairForm (fun i d => ((r i d : ℝ) : EReal)) = ((pairReal r : ℝ) : EReal) := by
  unfold pairForm pairReal
  simp only [Ideal.div_coe (by norm_num : (2048 : ℝ) ≠ 0), Ideal.div_coe (by norm_num : (2 : ℝ) ≠ 0),
    ← EReal.coe_sub, ← EReal.coe_mul, ← coe_sum, ← EReal.coe_neg]

/-- On finite samples the expanded form is the real expression. -/
theorem momentForm_coe (r : Fin 2048 → Fin 64 → ℝ) :
    momentForm (fun i d => ((r i d : ℝ) : EReal)) = ((momentReal r : ℝ) : EReal) := by
  unfold momentForm momentReal
  simp only [Ideal.div_coe (by norm_num : (8388608 : ℝ) ≠ 0),
    ← EReal.coe_sub, ← EReal.coe_add, ← EReal.coe_mul, ← coe_sum]

/-! ## The identity over the reals -/

/-- The square of the gap, expanded and summed over j. -/
theorem sum_sq_gap {ι : Type} [Fintype ι] (a : ι → ℝ) (b : ℝ) :
    ∑ j, (a j - b) * (a j - b) = (∑ j, a j * a j) - 2 * (b * ∑ j, a j) + (Fintype.card ι : ℝ) * (b * b) := by
  have h : ∀ j, (a j - b) * (a j - b) = a j * a j - 2 * (b * a j) + b * b := fun j => by ring
  simp only [h, Finset.sum_add_distrib, Finset.sum_sub_distrib, ← Finset.mul_sum, Finset.sum_const, Finset.card_univ,
    nsmul_eq_mul]
  ring

/-- Row by row the two real expressions agree: 1 / (2 · 2048) of the expanded square summed over d, then 1 / 2048. -/
theorem moment_eq_pair (r : Fin 2048 → Fin 64 → ℝ) : momentReal r = pairReal r := by
  unfold momentReal pairReal
  simp only [sum_sq_gap, Fintype.card_fin, Nat.cast_ofNat]
  rw [Finset.sum_mul, Finset.sum_mul]
  refine Finset.sum_congr rfl fun i _ => ?_
  have hd : ∀ d, -((∑ j, r j d * r j d - 2 * (r i d * ∑ j, r j d) + 2048 * (r i d * r i d)) * (1 / 2048)) * (1 / 2)
      = -(1 / 4096) * (∑ j, r j d * r j d) + (1 / 2048) * (r i d * ∑ j, r j d) - (1 / 2) * (r i d * r i d) :=
    fun d => by ring
  simp only [hd, Finset.sum_add_distrib, Finset.sum_sub_distrib, ← Finset.mul_sum]
  ring

/-! ## The two forms agree on finite samples -/

theorem momentForm_eq_pairForm (y : Fin 2048 → Fin 64 → EReal) (hfin : ∀ i d, ∃ r : ℝ, y i d = (r : EReal)) :
    momentForm y = pairForm y := by
  choose r hr using hfin
  obtain rfl : y = fun i d => ((r i d : ℝ) : EReal) := funext fun i => funext fun d => hr i d
  rw [momentForm_coe, pairForm_coe, moment_eq_pair]

end Cert.Gap

end
-- ==== Proof.KernelPayload.lean ====
/-
  What the kernel's body stores, on the extended reals. The body holds the whole 2048 x 64 array of samples x and
  writes one number. Read stage by stage:

    * the column sums S1(d) = Σ_a x(a, d) and S2(d) = Σ_a x(a, d)², kept as 1 x 64 rows;
    * per row i, its sum of squares Σ_d x(i, d)² and its inner product Σ_d x(i, d) · S1(d), kept as 2048 x 1 columns;
    * the total of all squares Σ_d S2(d), a 1 x 1 array repeated down the 2048 rows;
    * row(i) = 2048 · (sum of squares of row i) − 2 · (inner product of row i) + total, summed over the rows and
      divided by 8388608.

  That is `Cert.Gap.momentForm` of the samples. Each reduction is read as a plain finite sum, each change of layout
  (a vector laid as a row or as a column, a row or a single entry repeated) as the entry it copies.
-/
import proofs.«154337_j14422500180352_2_alg».proof.Proof.Gen.KernelIdeal.Skeleton
import proofs.«154337_j14422500180352_2_alg».proof.Proof.LibColReduce
import proofs.«154337_j14422500180352_2_alg».proof.Proof.LibRowOps
import proofs.«154337_j14422500180352_2_alg».proof.Proof.Literals
import proofs.«154337_j14422500180352_2_alg».proof.Proof.GapIdentity
import Idealize.ShloMosaic.Lib.ValueLayout

noncomputable section

open scoped BigOperators

namespace Cert.KernelIdeal.Moment

open Cert.KernelIdeal Cert.KernelIdeal.Gen Idealize.ShloMosaic Idealize.ShloMosaic.ValueIdx

/-- A sum down the 2048 rows, laid as a 1 x 64 row: at (u, d) it is the sum over the rows of column d. -/
theorem colSumRow_apply (z : FVec Ideal S2048x64 .f32) (u : Fin 1) (d : Fin 64) :
    shapeCast S1x64 (multiReduction .add [0] S64 z 0x00000000#32 reduces_S2048x64_S64 (.inl rfl) rfl) shapeCasts_S64_S1x64
        (ix2 u d) = ∑ a : Fin 2048, z (ix2 a d) :=
  (shapeCast_a_1a_apply _ shapeCasts_S64_S1x64 u d).trans
    (Cert.Lib.colAdd_apply z reduces_S2048x64_S64 (.inl rfl) rfl d)

/-- A sum along the 64 columns, laid as a 2048 x 1 column: at (i, u) it is the sum over the columns of row i. -/
theorem rowSumCol_apply (z : FVec Ideal S2048x64 .f32) (i : Fin 2048) (u : Fin 1) :
    shapeCast S2048x1 (multiReduction .add [1] S2048 z 0x00000000#32 reduces_S2048x64_S2048 (.inl rfl) rfl) shapeCasts_S2048_S2048x1
        (ix2 i u) = ∑ k : Fin 64, z (ix2 i k) :=
  (Cert.LibRowOps.shapeCast_a_a1_apply _ shapeCasts_S2048_S2048x1 i u).trans
    (Cert.LibRowOps.rowAdd_apply z reduces_S2048x64_S2048 (.inl rfl) rfl i)

/-- A 1 x 64 row repeated down 2048 rows reads, at (i, d), the row at d. -/
theorem rowRepeat_apply (w : FVec Ideal S1x64 .f32) (i : Fin 2048) (d : Fin 64) :
    broadcastTo S2048x64 w broadcasts_S1x64_S2048x64 (ix2 i d) = w (ix2 (0 : Fin 1) d) :=
  broadcastTo_1b_ab_apply w broadcasts_S1x64_S2048x64 i d

/-- The sum along a 1 x 64 row, laid as a 1 x 1 array: the sum of the row's 64 entries. -/
theorem rowTotal_apply (w : FVec Ideal S1x64 .f32) (u u' : Fin 1) :
    shapeCast S1x1 (multiReduction .add [1] S1 w 0x00000000#32 reduces_S1x64_S1 (.inl rfl) rfl) shapeCasts_S1_S1x1
        (ix2 u u') = ∑ k : Fin 64, w (ix2 u k) :=
  (Cert.LibRowOps.shapeCast_a_a1_apply _ shapeCasts_S1_S1x1 u u').trans
    (Cert.LibRowOps.rowAdd_apply w reduces_S1x64_S1 (.inl rfl) rfl u)

/-- A 1 x 1 array repeated down 2048 rows reads, at (i, u), its one entry. -/
theorem entryRepeat_apply (w : FVec Ideal S1x1 .f32) (i : Fin 2048) (u : Fin 1) :
    broadcastTo S2048x1 w broadcasts_S1x1_S2048x1 (ix2 i u) = w (ix2 (0 : Fin 1) u) :=
  broadcastTo_1b_ab_apply w broadcasts_S1x1_S2048x1 i u

/-- The sum down a 2048 x 1 column, laid as a 1 x 1 array: the sum of the column's 2048 entries. -/
theorem colTotal_apply (z : FVec Ideal S2048x1 .f32) (u u' : Fin 1) :
    shapeCast S1x1 (multiReduction .add [0] S1 z 0x00000000#32 reduces_S2048x1_S1 (.inl rfl) rfl) shapeCasts_S1_S1x1
        (ix2 u u') = ∑ a : Fin 2048, z (ix2 a u) :=
  (Cert.LibRowOps.shapeCast_a_a1_apply _ shapeCasts_S1_S1x1 u u').trans
    (Cert.Lib.colAdd_apply z reduces_S2048x1_S1 (.inl rfl) rfl u)

/-- A float word read on the scalar unit is the word's value. -/
theorem scalar_ofBits (b : BitVec 32) : Scalar.ofBits (F := Ideal) .f32 b = Ideal.ofBits .f32 b := rfl

/-- THE BODY'S STORE: its one entry is the expanded form of the samples it loaded. -/
theorem payload_apply (x : Vec Ideal S2048x64 .f32) :
    k0_pay1 (F := Ideal) x (ix2 (0 : Fin 1) (0 : Fin 1)) = Cert.Gap.momentForm (fun i d => x (ix2 i d)) := by
  unfold k0_pay1 Cert.Gap.momentForm
  dsimp only
  -- the quotient of the sum over the rows by the divisor's value
  rw [divf_apply, colTotal_apply, broadcast_apply, scalar_ofBits]
  refine congrArg₂ Ideal.div (Finset.sum_congr rfl fun i _ => ?_) Cert.Literals.ofBits_8388608
  -- row i: 2048 times its sum of squares, less twice its inner product with the column sums, plus the total
  rw [addf_apply, subf_apply, mulf_apply, mulf_apply, broadcast_apply, broadcast_apply,
    rowSumCol_apply, rowSumCol_apply, entryRepeat_apply, rowTotal_apply]
  refine congrArg₂ (· + ·) (congrArg₂ (· - ·)
      (congrArg₂ (· * ·) Cert.Literals.ofBits_2048 (Finset.sum_congr rfl fun d _ => rfl))
      (congrArg₂ (· * ·) Cert.Literals.ofBits_two (Finset.sum_congr rfl fun d _ => ?_)))
    (Finset.sum_congr rfl fun d _ => ?_)
  · -- the inner product's term at column d: the sample times the column's sum
    rw [mulf_apply, rowRepeat_apply, colSumRow_apply]
  · -- the total's term at column d: the column's sum of squares
    rw [colSumRow_apply]
    rfl

end Cert.KernelIdeal.Moment

end
-- ==== Proof.KernelRun.lean ====
/-
  The kernel's run, read. The grid has one point; the input window's block there is the whole 2048 x 64 argument and the
  output window's block is the whole 1 x 1 result array. So the one write-back stores the body's number — the expanded
  form `Cert.Gap.momentForm` of the argument's samples — into the 1 x 1 array, that block covers the array, and the host
  line after the region (the 1 x 1 array viewed as a scalar) reads that number. The run is the generated frame run with
  these equations in its post: the scalar result at the expanded form of the argument, the argument unchanged.
-/
import proofs.«154337_j14422500180352_2_alg».proof.Proof.Gen.KernelIdeal.Frame
import proofs.«154337_j14422500180352_2_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Moment

open Cert.KernelIdeal Cert.KernelIdeal.Gen

variable (m : (ℓ : Loc nD τ sig) → Buf (Elt Ideal) ℓ) (ρ : Dev nD → PrngReg)

/-- The number both programs compute, of a 2048 x 64 array of samples. -/
def value (y : S2048x64.Idx → EReal) : EReal := Cert.Gap.momentForm (fun i d => y (ix2 i d))

/-- The 1 x 1 result array as the region leaves it: that number at its one entry. -/
def regionOut (y : S2048x64.Idx → EReal) : S1x1.Idx → EReal := fun _ => value y

theorem hz : (![0, 0] : Fin 2 → Nat) = fun _ => 0 := funext fun a => by fin_cases a <;> rfl

/-- The body's store at any entry of the 1 x 1 block (there is one). -/
theorem payload_at (x : Vec Ideal S2048x64 .f32) (j : S1x1.Idx) : k0_pay1 (F := Ideal) x j = value x := by
  have hj : j = ix2 (0 : Fin 1) (0 : Fin 1) := funext fun a => Fin.ext (by
    match a with
    | ⟨0, _⟩ => have h : (j 0).val < 1 := (j 0).isLt; show (j 0).val = 0; omega
    | ⟨1, _⟩ => have h : (j 1).val < 1 := (j 1).isLt; show (j 1).val = 0; omega)
  rw [hj]
  exact payload_apply x

/-- Both windows' one block sits at block index (0, 0). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input window's block is the whole argument array: entry y of the block is entry y of the array. -/
theorem iblk_apply (c : Dev nD) (t : Fin cfg0.N) (y : S2048x64.Idx) :
    (iblk m c 0 t : Vec Ideal S2048x64 .f32) y = (V m c main_arg0 : S2048x64.Idx → EReal) y := by
  obtain ⟨e0, e1, -, -⟩ := idx_facts t
  unfold iblk
  rw [View.read_apply]
  show V m c main_arg0 (((cfg0.win 0).blk t).view.emb y) = V m c main_arg0 y
  refine congrArg (V m c main_arg0) (funext fun a => Fin.ext ?_)
  match a with
  | ⟨0, _⟩ => show win0_0.index t (0 : Fin 2) * 2048 + 1 * (y 0).val = (y 0).val; omega
  | ⟨1, _⟩ => show win0_0.index t (1 : Fin 2) * 64 + 1 * (y 1).val = (y 1).val; omega

/-- WHAT THE POINT WRITES BACK is the block of the array holding the expanded form of the argument. -/
theorem flushed_eq (c : Dev nD) (t : Fin cfg0.N) :
    (dats m 0 c).flushed 1 t = ((cfg0.win 1).blk t).view.read (Elt Ideal) (regionOut (V m c main_arg0)) := by
  show (cfg0.win 1).cut (grid0.coords t) ((dats m 0 c).after 1 t) = _
  rw [after0_1]
  unfold out0_1
  rw [View.canon_unit_zero hz]
  simp only [View.ld_unit_zero (S := S2048x64) hz]
  funext j
  rw [View.read_apply]
  show k0_pay1 (F := Ideal) (iblk m c 0 t) j = value (V m c main_arg0)
  refine (payload_at _ j).trans ?_
  exact congrArg Cert.Gap.momentForm (funext fun i => funext fun d => iblk_apply m c t (ix2 i d))

/-- The block covers the 1 x 1 array, so after the region the array is that form of the argument. -/
theorem final (c : Dev nD) : (dats m 0 c).arrAt 1 cfg0.N = regionOut (V m c main_arg0) :=
  (dats m 0 c).arrAt_eq_of_cover 1 (regionOut (V m c main_arg0)) (fun t _ => flushed_eq m c t) fun i =>
    ⟨t0_0, flush0_1 t0_0, by
      obtain ⟨-, -, e2, e3⟩ := idx_facts t0_0
      show i ∈ ((View.whole main_v0).slice (win0_1.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_0 (0 : Fin 2) * 1 ≤ (i 0 : Nat) ∧ (i 0 : Nat) < win0_1.index t0_0 (0 : Fin 2) * 1 + 1; omega
      | ⟨1, _⟩ => show win0_1.index t0_0 (1 : Fin 2) * 1 ≤ (i 1 : Nat) ∧ (i 1 : Nat) < win0_1.index t0_0 (1 : Fin 2) * 1 + 1; omega⟩

/-- The host line after the region views the 1 x 1 array as a scalar: the result buffer holds that number. -/
theorem tail_eq (c : Dev nD) :
    Pipeline.afterTail₀ cfgs (dats m) 0 (V0 m) [hostOps1] c main_v1 = fun _ => value (m ((c : Thread nD τ).loc main_arg0)) := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.devRef .tc main_v0) = regionOut (V m c main_arg0) :=
    (Pipeline.withArrays_arr spec0 launch0.win.arr_inj c _ _ 1).trans (final m c)
  rw [hw]
  rfl

/-- The scalar result buffer is unscoped and is no window's array: it bypasses the region. -/
theorem main_v1_rest : main_v1 ∈ Pipeline.restRefs sig (cfgs 0).spec :=
  Pipeline.mem_restRefs_of main_v1 rfl (fun w => by fin_cases w <;> decide)

/-- THE RUN, READ: every weakly fair execution terminates with the scalar result at the expanded form of the argument's
    samples and the argument unchanged. -/
theorem run : θ_run defs (onTc (τ := τ) (main (F := Ideal))) ⟨m, fun _ => 0, ρ⟩ fun r => ∀ c : Dev nD,
      r.2.mem ((c : Thread nD τ).loc main_v1) = (fun _ => value (m ((c : Thread nD τ).loc main_arg0)))
      ∧ r.2.mem ((c : Thread nD τ).loc main_arg0) = m ((c : Thread nD τ).loc main_arg0) :=
  (θ_run defs _ _).mono (fun r h c => ⟨((h c).2 main_v1 main_v1_rest).trans (tail_eq m c),
      ((h c).1 0).trans (((dats m 0 c).arrAt_in 0 rfl _).trans ((A_eq m c 0).trans (V_main_arg0 m c)))⟩)
    (run_main m ρ)

end Cert.KernelIdeal.Moment

end
-- ==== Proof.LibSumIdx1.lean ====
/-
  A sum over the index set of a one-dimensional array is the sum over its one coordinate: the index set of shape [n]
  is in bijection with Fin n (an index is its coordinate 0; `ix1 a` is the index with coordinate a). The rank-2
  counterpart is the library's `sum_idx2`. For any extent n and any commutative additive monoid.
  Imports only the library.
-/
import Idealize.ShloMosaic.Lib.ValueIdx

noncomputable section

open scoped BigOperators

namespace Cert.LibSumIdx1

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.LibSumIdx1

end
-- ==== Proof.RefValue.lean ====
/-
  What the reference computes, on the extended reals. Its program lays the samples x out twice in a 2048 x 2048 x 64
  array, as x(j, d) and as x(i, d) at entry (i, j, d), subtracts and squares; sums over j (from a zero initial value),
  divides by 2048, negates, divides by 2; sums over d, negates; sums over i and divides by 2048. Read one operation at
  a time (the generated read-at-an-index lemmas), with each composed index identified with plain coordinates, that is
  `Cert.Gap.pairForm` of the samples: each zero initial value drops out of its sum, and each divisor word is its value.
-/
import proofs.«154337_j14422500180352_2_alg».proof.Proof.Gen.ReferenceIdeal.Read
import proofs.«154337_j14422500180352_2_alg».proof.Proof.LibSumIdx1
import proofs.«154337_j14422500180352_2_alg».proof.Proof.Literals
import proofs.«154337_j14422500180352_2_alg».proof.Proof.GapIdentity
import Idealize.ShloMosaic.Lib.ValueIdx
import Idealize.ShloMosaic.PureOps.Ideal.Laws

noncomputable section

open scoped BigOperators

namespace Cert.ReferenceIdeal.Pairwise

open Cert.ReferenceIdeal Cert.ReferenceIdeal.Read Idealize.ShloMosaic Idealize.ShloMosaic.ValueIdx

/-- The summand of the sum over j at (i, d) reads the samples at (j, d) and at (i, d). -/
theorem idx_pair_j (i j : Fin 2048) (d : Fin 64) : idx_main_v0 (idx_main_v2 (ix3 i j d)) = ix2 j d :=
  funext fun b => Fin.ext (by match b with | ⟨0, _⟩ => rfl | ⟨1, _⟩ => rfl)

theorem idx_pair_i (i j : Fin 2048) (d : Fin 64) : idx_main_v1 (idx_main_v3 (ix3 i j d)) = ix2 i d :=
  funext fun b => Fin.ext (by match b with | ⟨0, _⟩ => rfl | ⟨1, _⟩ => rfl)

/-- Position j of the sum at result entry (i, d) is entry (i, j, d) of the 2048 x 2048 x 64 array. -/
theorem idx_sum_j (i j : Fin 2048) (d : Fin 64) : idx_main_v6 (ix2 i d) j = ix3 i j d :=
  funext fun b => Fin.ext (by match b with | ⟨0, _⟩ => rfl | ⟨1, _⟩ => rfl | ⟨2, _⟩ => rfl)

/-- Position d of the sum at result entry i is entry (i, d). -/
theorem idx_sum_d (i : Fin 2048) (d : Fin 64) : idx_main_v12 (ix1 i) d = ix2 i d :=
  funext fun b => Fin.ext (by match b with | ⟨0, _⟩ => rfl | ⟨1, _⟩ => rfl)

/-- THE REFERENCE'S RESULT is the pairwise form of the samples. -/
theorem result_apply (x : (⟨S2048x64, .f32⟩ : BufTy).Contents (Elt Ideal)) (u : S_.Idx) :
    val_main_v15 (F := Ideal) x u = Cert.Gap.pairForm (fun i d => x (ix2 i d)) := by
  unfold Cert.Gap.pairForm
  -- the last quotient, of the sum over the rows i
  rw [val_main_v15_apply, val_main_v14_apply]
  refine congrArg₂ Ideal.div ?_ Cert.Literals.ofBits_2048
  refine (congrArg₂ (· + ·) Ideal.ofBits_zero_f32 (Cert.LibSumIdx1.sum_idx1 _)).trans
    ((zero_add _).trans (Finset.sum_congr rfl fun i _ => ?_))
  -- row i: the negated sum over the columns d
  rw [val_main_v13_apply, val_main_v12_apply]
  refine congrArg Neg.neg ?_
  refine (congrArg₂ (· + ·) Ideal.ofBits_zero_f32 rfl).trans
    ((zero_add _).trans (Finset.sum_congr rfl fun d _ => ?_))
  -- entry (i, d): the mean over j, negated and halved
  rw [idx_sum_d, val_main_v11_apply, val_main_v10_apply, val_main_cst_1_apply, val_main_v9_apply, val_main_v8_apply,
    val_main_v7_apply, val_main_cst_0_apply, val_main_v6_apply]
  refine congrArg₂ Ideal.div (congrArg Neg.neg (congrArg₂ Ideal.div ?_ Cert.Literals.ofBits_2048))
    Cert.Literals.ofBits_two
  refine (congrArg₂ (· + ·) Ideal.ofBits_zero_f32 rfl).trans
    ((zero_add _).trans (Finset.sum_congr rfl fun j _ => ?_))
  -- the squared gap of samples j and i at column d
  rw [idx_sum_j, val_main_v5_apply, val_main_v4_apply, val_main_v2_apply, val_main_v3_apply, val_main_v0_apply,
    val_main_v1_apply, idx_pair_j, idx_pair_i]
  rfl

/-- The same as an equation of scalar arrays. -/
theorem result_eq (x : (⟨S2048x64, .f32⟩ : BufTy).Contents (Elt Ideal)) :
    val_main_v15 (F := Ideal) x = fun _ => Cert.Gap.pairForm (fun i d => x (ix2 i d)) :=
  funext fun u => result_apply x u

end Cert.ReferenceIdeal.Pairwise

end
-- ==== Proof.Finite.lean ====
/-
  The precondition, read. It says that the conjunction over all entries of "|x| < +infinity" is true. A conjunction
  over every entry that is true is true at each entry, and an extended real whose absolute value max(a, −a) lies
  strictly below +infinity is neither infinity: it is a real number. So under the precondition every sample is real.
-/
import proofs.«154337_j14422500180352_2_alg».proof.Pre_finite_inputs
import proofs.«154337_j14422500180352_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Idealize.ShloMosaic.ValueIdx

/-- A scalar array has one index. -/
instance : Subsingleton S_.Idx := ⟨fun _ _ => funext fun d => d.elim0⟩

/-- An extended real whose absolute value is strictly below the word of +infinity is a real. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- Under the precondition every entry of the argument is a real. -/
theorem real_of_pre (x : FVec Ideal S2048x64 .f32) (h : fn (F := Ideal) x = fun _ => 1#1) (i : S2048x64.Idx) :
    ∃ r : ℝ, x i = (r : EReal) := by
  have e := congrFun h ix0
  dsimp only [fn] at e
  exact real_of_abs_lt_inf (x i) (Host.reduce_andi_all _ _ _ _ ix0 e i)

end Cert.Pre_finite_inputs.Finite

end
-- ==== Proof.Algebraic.lean ====
/-
  The two idealized programs agree. The kernel's scalar result is the expanded form of the argument's samples (its run,
  read), the reference's is the pairwise form of its own argument (its run, read one operation at a time); the
  arguments agree, the precondition makes every sample a real, and on real samples the two forms are one number
  (the square of the gap expanded and summed).
-/
import proofs.«154337_j14422500180352_2_alg».proof.Defs
import proofs.«154337_j14422500180352_2_alg».proof.Proof.KernelRun
import proofs.«154337_j14422500180352_2_alg».proof.Proof.RefValue
import proofs.«154337_j14422500180352_2_alg».proof.Proof.Finite
import proofs.«154337_j14422500180352_2_alg».proof.Proof.Gen.ReferenceIdeal.Run

noncomputable section

open Idealize.ShloMosaic Idealize.ShloMosaic.TcCoe Idealize.SL.Sem Idealize.ShloMosaic.ValueIdx

namespace Cert.Proof.Claims

/-- From memories agreeing on the argument, under the precondition, both runs end with the same scalar: the expanded
    form of the samples, which for real samples is the pairwise form. -/
theorem algebraic : Cert.algebraic_KernelIdeal_ReferenceIdeal := by
  intro m ρ m' ρ' hpre hagree
  refine ⟨fun c => fun _ => Cert.KernelIdeal.Moment.value (m ((c : Thread Cert.KernelIdeal.nD Cert.KernelIdeal.τ).loc Cert.KernelIdeal.main_arg0)),
    Cert.KernelIdeal.Moment.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Pairwise.result_eq, hagree c]
  funext _
  exact (Cert.Gap.momentForm_eq_pairForm _ fun i d =>
    Cert.Pre_finite_inputs.Finite.real_of_pre _ (hpre c) (ix2 i d)).symm

end Cert.Proof.Claims

end
-- ==== Proof.lean ====
/-
  The certificate of a mean squared gap between samples, computed two ways.

  For an array y of 2048 samples in 64 coordinates both programs return

      (1 / (2 · 2048²)) · Σ_i Σ_d Σ_j (y(j, d) − y(i, d))².

  The reference forms every gap y(j, d) − y(i, d), squares it, and takes means: over j, then (halved) the sum over d,
  then the mean over i. The kernel never forms a gap: it expands the square,

      Σ_j (y(j, d) − y(i, d))² = Σ_j y(j, d)² − 2 · y(i, d) · Σ_j y(j, d) + 2048 · y(i, d)²,

  so that each row i needs its own sum of squares, its inner product with the vector of column sums, and the total of
  all squares; it adds the rows and divides once by 2 · 2048 · 2048. Every constant either program spells is a power of
  two, denoting itself exactly.

  The expansion is an identity of real numbers; on the extended reals it can fail at an infinity. The precondition
  says every sample is finite, and that is where it is used: the samples are then reals, each program's result is the
  image of a real expression, and the two real expressions are equal (Proof/GapIdentity.lean).

  The parts: what the kernel's body stores, index by index (Proof/KernelPayload.lean); its run with the result named
  (Proof/KernelRun.lean: the one block is the whole array, and the host line after the region views the 1 x 1 result as
  a scalar); the reference's result read one operation at a time (Proof/RefValue.lean); finiteness from the
  precondition (Proof/Finite.lean); the two runs side by side (Proof/Algebraic.lean). The three frames are the
  generated frame runs (the reference's with its result dropped), and the idealization rewrote nothing, so there is
  nothing to preserve.
-/
import proofs.«154337_j14422500180352_2_alg».proof.Defs
import proofs.«154337_j14422500180352_2_alg».proof.Proof.Gen.Kernel
import proofs.«154337_j14422500180352_2_alg».proof.Proof.Gen.Kernel.Skeleton
import proofs.«154337_j14422500180352_2_alg».proof.Proof.Gen.Kernel.Launch
import proofs.«154337_j14422500180352_2_alg».proof.Proof.Gen.Kernel.Points
import proofs.«154337_j14422500180352_2_alg».proof.Proof.Gen.Kernel.Frame
import proofs.«154337_j14422500180352_2_alg».proof.Proof.Gen.KernelIdeal
import proofs.«154337_j14422500180352_2_alg».proof.Proof.Gen.KernelIdeal.Skeleton
import proofs.«154337_j14422500180352_2_alg».proof.Proof.Gen.KernelIdeal.Launch
import proofs.«154337_j14422500180352_2_alg».proof.Proof.Gen.KernelIdeal.Points
import proofs.«154337_j14422500180352_2_alg».proof.Proof.Gen.KernelIdeal.Frame
import proofs.«154337_j14422500180352_2_alg».proof.Proof.Gen.ReferenceIdeal
import proofs.«154337_j14422500180352_2_alg».proof.Proof.Gen.ReferenceIdeal.Run
import proofs.«154337_j14422500180352_2_alg».proof.Proof.Gen.ReferenceIdeal.Read
import proofs.«154337_j14422500180352_2_alg».proof.Proof.Gen.Pre_finite_inputs
import proofs.«154337_j14422500180352_2_alg».proof.Proof.Algebraic
import Idealize.ShloMosaic.Adequacy
import Idealize.ShloMosaic.Init

noncomputable section

namespace Cert.Proof

open Idealize.ShloMosaic Idealize.SL.Sem Cert.Kernel

/-- The word-level kernel runs and keeps its argument: its generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its argument: its generated run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: there is no conjunct to prove. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, Cert.Proof.Claims.algebraic⟩

end Cert.Proof

end
